-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192 : Shape := ⟨1, ![8192]⟩
abbrev S8192x8192 : Shape := ⟨2, ![8192, 8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : FVec F S8192 .f32) (main_arg2 : FVec F S8192 .f32) (main_arg3 : IVec S8192x8192 32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S8192 : Shape := ⟨1, ![8192]⟩
abbrev S8192x8192 : Shape := ⟨2, ![8192, 8192]⟩
abbrev S_ : Shape := ⟨0, ![]⟩
abbrev S1x8192 : Shape := ⟨2, ![1, 8192]⟩
abbrev S256x8192 : Shape := ⟨2, ![256, 8192]⟩
abbrev S1x256 : Shape := ⟨2, ![1, 256]⟩
abbrev S32x256 : Shape := ⟨2, ![32, 256]⟩

abbrev nBuf : Space → Nat
  | .hbm => 25
  | .vmem => 9
  | .smem => 0
  | _ => 0

abbrev bufTy : (tb : Table) → Fin (tcTables nBuf tb) → BufTy
  | .hbm, ⟨0, _⟩ => ⟨S32x8192, .f32⟩
  | .hbm, ⟨1, _⟩ => ⟨S8192, .f32⟩
  | .hbm, ⟨2, _⟩ => ⟨S8192, .f32⟩
  | .hbm, ⟨3, _⟩ => ⟨S8192x8192, .i32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S1x8192, .f32⟩
  | .hbm, ⟨22, _⟩ => ⟨S1x8192, .f32⟩
  | .hbm, ⟨23, _⟩ => ⟨S32x8192, .bf16⟩
  | .hbm, ⟨24, _⟩ => ⟨S32x8192, .f32⟩
  | .local _ .vmem, ⟨0, _⟩ => ⟨S32x8192, .bf16⟩
  | .local _ .vmem, ⟨1, _⟩ => ⟨S256x8192, .i32⟩
  | .local _ .vmem, ⟨2, _⟩ => ⟨S256x8192, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S32x256, .f32⟩
  | .local _ .vmem, ⟨8, _⟩ => ⟨S32x256, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8192 : S_.BroadcastsInDim S8192 (![] : Fin 0 → Fin S8192.rank)
  shapeCasts_S8192_S1x8192 : S8192.ShapeCasts S1x8192
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .bf16 = 32 ∨ (Rect.block (s := S32x8192) S32x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x8192.size a
  hwx0_4 : ∀ i : grid0.Coords, EltTy.bits .f32 = 32 ∨ (Rect.block (s := S32x8192) S32x256.size (cc0_transform_4 i) (hinb0_4 i)).WholeWords (EltTy.packing .f32)

variable [Facts₀]

def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_v5) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192 : Shape := ⟨2, ![32, 8192]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192, .f32⟩
  | .hbm, ⟨2, _⟩ => ⟨S8192, .f32⟩
  | .hbm, ⟨3, _⟩ => ⟨S8192x8192, .i32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S32x8192, .f32⟩
  | .hbm, ⟨26, _⟩ => ⟨S1x8192, .f32⟩
  | .hbm, ⟨27, _⟩ => ⟨S32x8192, .f32⟩
  | .hbm, ⟨28, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  dot_S32x8192_S8192x8192_S32x8192_1_1_0_0_n_n_wf : DotDims.WF S32x8192 S8192x8192 S32x8192 [1] [1] [0] [0] [] []

variable [Facts₀]

def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf

class Facts : Prop extends Facts₀ where

variable [Facts]
-- ==== Proof.Payload.lean ====
/-
  One element of the block the kernel body stores.

  At a grid point the body holds the whole activations `a : [32, 8192]`, a block `w : [256, 8192]` of integer
  weights (256 output channels), and the channels' scales and biases as rows `s, β : [1, 256]`. It converts the
  weights, contracts `a` with them over the shared axis of length 8192 into a zero accumulator, multiplies by the
  scale row broadcast over the batch axis and adds the bias row broadcast likewise. At the block element `(p, q)`:
      (Σ_{k < 8192} a[p, k] · w[q, k]) · s[0, q] + β[0, q].
-/
import proofs.«133541_j14259291422935_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The contraction's operand indices: output `(p, q)` and contraction index `k` read `a[p, k]` and `w[q, k]` -/

theorem lhs_coord0 (j : S32x256.Idx) (r : dot_S32x8192_S256x8192_S32x256_1_1_0_0_n_n.contr.Idx) :
    (dot_S32x8192_S256x8192_S32x256_1_1_0_0_n_n.lhsIdx j r 0).val = (j 0).val := by
  unfold DotDims.lhsIdx
  rw [dif_neg (show ¬(0 : Fin S32x8192.rank) ∈ dot_S32x8192_S256x8192_S32x256_1_1_0_0_n_n.lhsBatch by decide),
    dif_pos (show (0 : Fin S32x8192.rank) ∈ dot_S32x8192_S256x8192_S32x256_1_1_0_0_n_n.lhsNonContracting by decide)]
  rfl
theorem lhs_coord1 (j : S32x256.Idx) (r : dot_S32x8192_S256x8192_S32x256_1_1_0_0_n_n.contr.Idx) :
    (dot_S32x8192_S256x8192_S32x256_1_1_0_0_n_n.lhsIdx j r 1).val = (r ⟨0, by decide⟩).val :=
  dot_S32x8192_S256x8192_S32x256_1_1_0_0_n_n.lhsIdx_val_of_single rfl j r
theorem rhs_coord0 (j : S32x256.Idx) (r : dot_S32x8192_S256x8192_S32x256_1_1_0_0_n_n.contr.Idx) :
    (dot_S32x8192_S256x8192_S32x256_1_1_0_0_n_n.rhsIdx j r 0).val = (j 1).val := by
  unfold DotDims.rhsIdx
  rw [dif_neg (show ¬(0 : Fin S256x8192.rank) ∈ dot_S32x8192_S256x8192_S32x256_1_1_0_0_n_n.rhsBatch by decide),
    dif_pos (show (0 : Fin S256x8192.rank) ∈ dot_S32x8192_S256x8192_S32x256_1_1_0_0_n_n.rhsNonContracting by decide)]
  rfl
theorem rhs_coord1 (j : S32x256.Idx) (r : dot_S32x8192_S256x8192_S32x256_1_1_0_0_n_n.contr.Idx) :
    (dot_S32x8192_S256x8192_S32x256_1_1_0_0_n_n.rhsIdx j r 1).val = (r ⟨0, by decide⟩).val :=
  dot_S32x8192_S256x8192_S32x256_1_1_0_0_n_n.rhsIdx_val_of_single rfl j r

/-- The block product into the zero accumulator, at `(p, q)`: row `p` of the left operand against row `q` of the
    right one, summed over the shared axis. -/
theorem blockDot_apply (a : FVec Ideal S32x8192 .bf16) (w : FVec Ideal S256x8192 .bf16) (p : Fin 32) (q : Fin 256) :
    matmul (F := Ideal) dot_S32x8192_S256x8192_S32x256_1_1_0_0_n_n none a w (constant (F := Ideal) S32x256 .f32 0x00000000#32) (ix2 p q)
      = ∑ k : Fin 8192, a (ix2 p k) * w (ix2 q k) := by
  simp only [matmul]
  rw [Ideal.matmul_constant_zero_apply, ← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 p q) ((contrEquiv1 dot_S32x8192_S256x8192_S32x256_1_1_0_0_n_n 8192 rfl rfl).symm k) = ix2 p k :=
    funext fun d => Fin.ext (by
      match d with
      | ⟨0, _⟩ => exact lhs_coord0 _ _
      | ⟨1, _⟩ => exact (lhs_coord1 _ _).trans hk)
  have er : dot_S32x8192_S256x8192_S32x256_1_1_0_0_n_n.rhsIdx (ix2 p q) ((contrEquiv1 dot_S32x8192_S256x8192_S32x256_1_1_0_0_n_n 8192 rfl rfl).symm k) = ix2 q k :=
    funext fun d => Fin.ext (by
      match d with
      | ⟨0, _⟩ => exact rhs_coord0 _ _
      | ⟨1, _⟩ => exact (rhs_coord1 _ _).trans hk)
  rw [el, er]

/-- A `[1, 256]` row broadcast over the 32 batch rows reads the row at the column. -/
theorem rowBroadcast_apply (v : Vec Ideal S1x256 .f32) (p : Fin 32) (q : Fin 256) :
    broadcastTo S32x256 (shapeCast S1x256 v shapeCasts_S1x256_S1x256) broadcasts_S1x256_S32x256 (ix2 p q)
      = v (ix2 (0 : Fin 1) q) := by
  rw [shapeCast_self]
  exact broadcastTo_apply v _ (ix2 p q) (ix2 (0 : Fin 1) q) (fun d => by
    match d with
    | ⟨0, _⟩ => show (0 : ℕ) = if (1 : ℕ) = 1 then 0 else p.val; rw [if_pos rfl]
    | ⟨1, _⟩ => show q.val = if (256 : ℕ) = 1 then 0 else q.val; rw [if_neg (by decide)])

/-- The stored value at block element `(p, q)`. -/
theorem payload_apply (v0 : Vec Ideal S256x8192 .i32) (v2 : Vec Ideal S32x8192 .bf16) (v5 v9 : Vec Ideal S1x256 .f32)
    (p : Fin 32) (q : Fin 256) :
    k0_pay1 (F := Ideal) v0 v2 v5 v9 (ix2 p q)
      = (∑ k : Fin 8192, v2 (ix2 p k) * (((v0 (ix2 q k)).toInt : ℝ) : EReal)) * v5 (ix2 (0 : Fin 1) q)
        + v9 (ix2 (0 : Fin 1) q) := by
  unfold k0_pay1
  rw [addf_apply, mulf_apply, blockDot_apply, rowBroadcast_apply, rowBroadcast_apply, shapeCast_self]
  rfl

end Cert.KernelIdeal.Hand

end
-- ==== Proof.Algebra.lean ====
/-
  The algebra that joins the two programs.

  Both compute, for a batch row `b` and an output channel `o`,
      out[b, o] = Σ_k x[b, k] · W[o, k] · s[o] + bias[o],
  where `W` is the integer weight read as a real and `s[o]` is the per-channel scale. One program multiplies the
  contraction's total by `s[o]`; the other scales every weight by `s[o]` before contracting. On the extended reals
  a factor moves across a sum only with care (`(⊤ + ⊥) · s` and `⊤ · s + ⊥ · s` differ for a negative or an infinite
  `s`), so the law is stated for a factor `0 ≤ s < ⊤`; nothing is asked of the summands.

  The scale is `max (softplus ℓ) c` for the channel's parameter `ℓ` and a small positive constant `c`, with
  `softplus ℓ = max ℓ 0 + log (1 + exp (-|ℓ|))`. At a real `ℓ` this is a real that is at least `c ≥ 0`, which is
  all the law needs.
-/
import Idealize.ShloMosaic.PureOps.Ideal
import Idealize.ShloMosaic.PureOps.Ideal.Laws
import Idealize.ShloMosaic.Lib.ValueIdx

noncomputable section

open scoped BigOperators

namespace Cert.TernaryLinear

open Idealize.ShloMosaic

/-! ## A non-negative finite factor moves across a finite sum -/

/-- `(Σ a_k) · s = Σ (a_k · s)` for `0 ≤ s`, `s ≠ ⊤`, whatever the summands (by induction on the index set, each
    step the two-term law for such a factor). -/
theorem sum_mul_of_nonneg_of_ne_top {ι : Type} (T : Finset ι) (a : ι → EReal) {s : EReal} (h0 : 0 ≤ s) (ht : s ≠ ⊤) :
    (∑ k ∈ T, a k) * s = ∑ k ∈ T, a k * s := by
  classical
  refine Finset.induction_on T ?_ ?_
  · rw [Finset.sum_empty, Finset.sum_empty, zero_mul]
  · intro k T hk ih
    rw [Finset.sum_insert hk, Finset.sum_insert hk, EReal.right_distrib_of_nonneg_of_ne_top h0 ht, ih]

/-- Scaling the contraction's total is contracting against the scaled weights. -/
theorem contraction_mul {n : ℕ} (x w : Fin n → EReal) {s : EReal} (h0 : 0 ≤ s) (ht : s ≠ ⊤) :
    (∑ k : Fin n, x k * w k) * s = ∑ k : Fin n, x k * (w k * s) := by
  rw [sum_mul_of_nonneg_of_ne_top _ _ h0 ht]
  exact Finset.sum_congr rfl fun k _ => mul_assoc _ _ _

/-! ## Reals inside the extended reals -/

/-- The inclusion of the reals is monotone, so it carries a maximum to the maximum. -/
theorem coe_max (a b : ℝ) : ((max a b : ℝ) : EReal) = max (a : EReal) (b : EReal) :=
  EReal.coe_strictMono.monotone.map_max

/-! ## The clamp constant -/

/-- The clamp's word is the dyadic rational `13743895 / 2^37` (about `1e-4`). -/
theorem clamp_eq : Ideal.ofBits .f32 0x38D1B717#32 = ((13743895 / 2 ^ 37 : ℝ) : EReal) := by
  simp [Ideal.ofBits, Ideal.ieee, -EReal.coe_mul]; norm_num

/-! ## The scale of one channel -/

/-- The scale of a channel whose parameter is `ℓ`, operation by operation as both programs compute it: with
    `d = ℓ - 0`, the select on `d ≠ d` (never taken on the extended reals) between `ℓ + 0` and
    `max ℓ 0 + log1p (exp (-|d|))`, clamped below by the constant. -/
def scaleAt (l : EReal) : EReal :=
  max (Scalar.select (Ideal.cmp .une (l - Ideal.ofBits .f32 0x00000000#32) (l - Ideal.ofBits .f32 0x00000000#32))
        (l + Ideal.ofBits .f32 0x00000000#32)
        (max l (Ideal.ofBits .f32 0x00000000#32)
          + Ideal.log1p (Ideal.exp (-(max (l - Ideal.ofBits .f32 0x00000000#32) (-(l - Ideal.ofBits .f32 0x00000000#32)))))))
    (Ideal.ofBits .f32 0x38D1B717#32)

/-- At a real parameter the scale is a real, at least the clamp constant. -/
theorem scaleAt_coe (r : ℝ) :
    scaleAt (r : EReal) = ((max (max r 0 + Real.log (1 + Real.exp (-(max r (-r))))) (13743895 / 2 ^ 37) : ℝ) : EReal) := by
  have hne : Ideal.cmp .une ((r : EReal) - 0) ((r : EReal) - 0) = 0#1 := by simp [Ideal.cmp]
  have hpos : ¬ (1 + Real.exp (-(max r (-r))) ≤ 0) := not_le.2 (by positivity)
  unfold scaleAt
  rw [Ideal.ofBits_zero_f32, clamp_eq, hne, ValueIdx.select_zero]
  rw [sub_zero, ← EReal.coe_neg, ← coe_max, ← EReal.coe_neg, Ideal.exp_coe]
  unfold Ideal.log1p
  rw [← EReal.coe_one, ← EReal.coe_add, Ideal.log_coe, if_neg hpos, ← EReal.coe_zero, ← coe_max, ← EReal.coe_add,
    ← coe_max]

/-- So it is non-negative and not `⊤`: the factor the law above takes. -/
theorem scaleAt_coe_nonneg (r : ℝ) : 0 ≤ scaleAt (r : EReal) := by
  rw [scaleAt_coe]
  exact EReal.coe_nonneg.2 (le_max_of_le_right (by positivity))

theorem scaleAt_coe_ne_top (r : ℝ) : scaleAt (r : EReal) ≠ ⊤ := by
  rw [scaleAt_coe]
  exact EReal.coe_ne_top _

end Cert.TernaryLinear

end
-- ==== Proof.Spec.lean ====
/-
  The result both programs compute, as one function of the four argument arrays.

  For a batch row `b < 32` and an output channel `o < 8192`,
      out[b, o] = (Σ_{k < 8192} x[b, k] · W[o, k]) · s(ℓ[o]) + bias[o],
  with `W[o, k]` the 32-bit weight word read as a signed integer and `s` the channel's scale (`scaleAt`).
  Stated in the arrangement that multiplies the contraction's total by the scale; the other arrangement, which scales
  each weight first, is `outScaledWeights`, and the two agree wherever the channel parameters are real
  (`out_eq_outScaledWeights`).
-/
import proofs.«133541_j14259291422935_2_alg».proof.Proof.Algebra

noncomputable section

open scoped BigOperators

namespace Cert.TernaryLinear

open Idealize.ShloMosaic Idealize.ShloMosaic.ValueIdx

/-- The activations' and the result's shape, the channel vectors' shape, the weights' shape. -/
abbrev SAct : Shape := ⟨2, ![32, 8192]⟩
abbrev SChan : Shape := ⟨1, ![8192]⟩
abbrev SWeight : Shape := ⟨2, ![8192, 8192]⟩

/-- Row `b` of the activations contracted with channel `o`'s row of integer weights. -/
def rowDot (x : SAct.Idx → EReal) (w : SWeight.Idx → BitVec 32) (b : Fin 32) (o : Fin 8192) : EReal :=
  ∑ k : Fin 8192, x (ix2 b k) * (((w (ix2 o k)).toInt : ℝ) : EReal)

/-- The result: the contraction's total times the channel's scale, plus the channel's bias. -/
def out (x : SAct.Idx → EReal) (l bias : SChan.Idx → EReal) (w : SWeight.Idx → BitVec 32) : SAct.Idx → EReal :=
  fun i => rowDot x w (i 0) (i 1) * scaleAt (l (ix1 (i 1))) + bias (ix1 (i 1))

/-- The other arrangement: every weight of the channel scaled first, then the contraction, then the bias. -/
def outScaledWeights (x : SAct.Idx → EReal) (l bias : SChan.Idx → EReal) (w : SWeight.Idx → BitVec 32) : SAct.Idx → EReal :=
  fun i => (∑ k : Fin 8192, x (ix2 (i 0) k) * ((((w (ix2 (i 1) k)).toInt : ℝ) : EReal) * scaleAt (l (ix1 (i 1)))))
    + bias (ix1 (i 1))

/-- Where every channel parameter is a real the two arrangements are one function: the scale is then a non-negative
    real, which moves across the contraction's sum. -/
theorem out_eq_outScaledWeights (x : SAct.Idx → EReal) (l bias : SChan.Idx → EReal) (w : SWeight.Idx → BitVec 32)
    (hl : ∀ j : SChan.Idx, ∃ r : ℝ, l j = (r : EReal)) : out x l bias w = outScaledWeights x l bias w := by
  funext i
  obtain ⟨r, hr⟩ := hl (ix1 (i 1))
  unfold out outScaledWeights rowDot
  rw [hr, contraction_mul _ _ (scaleAt_coe_nonneg r) (scaleAt_coe_ne_top r)]

end Cert.TernaryLinear

end
-- ==== Proof.HostArrays.lean ====
/-
  What the region finds in the arrays the host operations write before it.

  Before the one region the host computes the channel scales from the parameters (the softplus function's
  operations, then the clamp) and lays them out as a row `[1, 8192]`; lays the biases out as a row likewise; and
  narrows the activations' format, which changes no value on the extended reals. So the region stages the activations
  themselves, the row of `scaleAt` of the parameters, and the row of biases.
-/
import proofs.«133541_j14259291422935_2_alg».proof.Proof.Gen.KernelIdeal.Frame
import proofs.«133541_j14259291422935_2_alg».proof.Proof.Spec
import Idealize.ShloMosaic.Lib.StableHlo.Run
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.TernaryLinear

variable (m : (ℓ : Loc nD τ sig) → Buf (Elt Ideal) ℓ)

/-- The narrowed activations are the activations. -/
theorem V_act (c : Dev nD) :
    (V m c main_v5 : S32x8192.Idx → EReal) = m ((c : Thread nD τ).loc main_arg0) := by
  dsimp only [Gen.V]
  simp only [hostOps0, hostOps0_1, List.flatten_cons, List.flatten_nil, List.append_nil, List.cons_append, List.nil_append]
  after_results
  rfl

/-- The bias row is the bias vector laid out as `[1, 8192]`. -/
theorem V_bias (c : Dev nD) :
    (V m c main_v4 : S1x8192.Idx → EReal)
      = shapeCast S1x8192 (m ((c : Thread nD τ).loc main_arg2) : S8192.Idx → EReal) shapeCasts_S8192_S1x8192 := by
  dsimp only [Gen.V]
  simp only [hostOps0, hostOps0_1, List.flatten_cons, List.flatten_nil, List.append_nil, List.cons_append, List.nil_append]
  after_results
  rfl

/-- The scale row is `scaleAt` of each channel's parameter, laid out as `[1, 8192]`. -/
theorem V_scale (c : Dev nD) :
    (V m c main_v3 : S1x8192.Idx → EReal)
      = shapeCast S1x8192 (fun j : S8192.Idx => scaleAt ((m ((c : Thread nD τ).loc main_arg1) : S8192.Idx → EReal) j))
          shapeCasts_S8192_S1x8192 := by
  dsimp only [Gen.V]
  simp only [hostOps0, hostOps0_1, List.flatten_cons, List.flatten_nil, List.append_nil, List.cons_append, List.nil_append]
  after_results
  rfl

/-- A vector laid out as a one-row matrix reads, at column `o` of its row, the vector at `o`. -/
theorem row_apply (v : S8192.Idx → EReal) (o : Fin 8192) :
    shapeCast S1x8192 v shapeCasts_S8192_S1x8192 (ix2 (0 : Fin 1) o) = v (ix1 o) :=
  (shapeCast_addUnit_apply ![8192] v shapeCasts_S8192_S1x8192 (ix2 (0 : Fin 1) o)).trans
    (congrArg v (funext fun a => by match a with | ⟨0, _⟩ => rfl))

theorem V_bias_apply (c : Dev nD) (o : Fin 8192) :
    (V m c main_v4 : S1x8192.Idx → EReal) (ix2 (0 : Fin 1) o)
      = (m ((c : Thread nD τ).loc main_arg2) : S8192.Idx → EReal) (ix1 o) :=
  (congrFun (V_bias m c) _).trans (row_apply _ o)

theorem V_scale_apply (c : Dev nD) (o : Fin 8192) :
    (V m c main_v3 : S1x8192.Idx → EReal) (ix2 (0 : Fin 1) o)
      = scaleAt ((m ((c : Thread nD τ).loc main_arg1) : S8192.Idx → EReal) (ix1 o)) :=
  (congrFun (V_scale m c) _).trans (row_apply _ o)

end Cert.KernelIdeal.Hand

end
-- ==== Proof.Blocks.lean ====
/-
  From the blocks to the whole result array.

  The grid has 32 points. Point `t` holds the whole activations, rows `256 t … 256 t + 255` of the weights, and
  columns `256 t … 256 t + 255` of the scale row and of the bias row, and writes back columns `256 t … 256 t + 255` of
  the result (all 32 rows). So block element `(p, q)` of point `t` is the result's element `(p, 256 t + q)`, and
  what the body stores there is `out` of the argument arrays at that element. The 32 column blocks tile the
  8192 columns, so after the run the result array is `out` of the arguments.
-/
import proofs.«133541_j14259291422935_2_alg».proof.Proof.Gen.KernelIdeal.Value
import proofs.«133541_j14259291422935_2_alg».proof.Proof.Payload
import proofs.«133541_j14259291422935_2_alg».proof.Proof.HostArrays

noncomputable section

open scoped BigOperators

namespace Cert.KernelIdeal.Hand

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.TernaryLinear

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the activations' window stays at block `(0, 0)`; the weights' window is at row
    block `t`; the scale row's, the bias row's and the result's windows are at column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 32 := lt_of_lt_of_eq t.isLt N_0

/-- Column `q` of point `t`'s block is column `256 t + q` of the array. -/
def col (t : Fin cfg0.N) (q : Fin 256) : Fin 8192 := ⟨256 * t.val + q.val, by have := point_lt t; have := q.isLt; omega⟩

/-! ## Each input block, read where the output block's element sits -/

/-- The activations' block is the activations. -/
theorem act_block (c : Dev nD) (t : Fin cfg0.N) (p : Fin 32) (k : Fin 8192) :
    (iblk m c 0 t : Vec Ideal S32x8192 .bf16) (ix2 p k)
      = (m ((c : Thread nD τ).loc main_arg0) : S32x8192.Idx → EReal) (ix2 p k) := by
  obtain ⟨e0, e1, -⟩ := idx_facts t
  have e : ((cfg0.win 0).blk t).view.emb (ix2 p k) = ix2 p k := funext fun a => Fin.ext (by
    match a with
    | ⟨0, _⟩ => show win0_0.index t (0 : Fin 2) * 32 + 1 * p.val = p.val; omega
    | ⟨1, _⟩ => show win0_0.index t (1 : Fin 2) * 8192 + 1 * k.val = k.val; omega)
  show V m c main_v5 (((cfg0.win 0).blk t).view.emb (ix2 p k)) = _
  rw [e]
  exact congrFun (V_act m c) (ix2 p k)

/-- Row `q` of the weights' block is row `256 t + q` of the weights. -/
theorem weight_block (c : Dev nD) (t : Fin cfg0.N) (q : Fin 256) (k : Fin 8192) :
    (iblk m c 1 t : Vec Ideal S256x8192 .i32) (ix2 q k)
      = (m ((c : Thread nD τ).loc main_arg3) : S8192x8192.Idx → BitVec 32) (ix2 (col t q) k) := by
  obtain ⟨-, -, e0, e1, -⟩ := idx_facts t
  have e : ((cfg0.win 1).blk t).view.emb (ix2 q k) = ix2 (col t q) k := funext fun a => Fin.ext (by
    match a with
    | ⟨0, _⟩ => show win0_1.index t (0 : Fin 2) * 256 + 1 * q.val = 256 * t.val + q.val; omega
    | ⟨1, _⟩ => show win0_1.index t (1 : Fin 2) * 8192 + 1 * k.val = k.val; omega)
  show V m c main_arg3 (((cfg0.win 1).blk t).view.emb (ix2 q k)) = _
  rw [e, V_main_arg3]

/-- Column `q` of the scale row's block is the scale of channel `256 t + q`. -/
theorem scale_block (c : Dev nD) (t : Fin cfg0.N) (q : Fin 256) :
    (iblk m c 2 t : Vec Ideal S1x256 .f32) (ix2 (0 : Fin 1) q)
      = scaleAt ((m ((c : Thread nD τ).loc main_arg1) : S8192.Idx → EReal) (ix1 (col t q))) := by
  obtain ⟨-, -, -, -, e0, e1, -⟩ := idx_facts t
  have e : ((cfg0.win 2).blk t).view.emb (ix2 (0 : Fin 1) q) = ix2 (0 : Fin 1) (col t q) := funext fun a => Fin.ext (by
    match a with
    | ⟨0, _⟩ => show win0_2.index t (0 : Fin 2) * 1 + 1 * 0 = 0; omega
    | ⟨1, _⟩ => show win0_2.index t (1 : Fin 2) * 256 + 1 * q.val = 256 * t.val + q.val; omega)
  show V m c main_v3 (((cfg0.win 2).blk t).view.emb (ix2 (0 : Fin 1) q)) = _
  rw [e]
  exact V_scale_apply m c (col t q)

/-- Column `q` of the bias row's block is the bias of channel `256 t + q`. -/
theorem bias_block (c : Dev nD) (t : Fin cfg0.N) (q : Fin 256) :
    (iblk m c 3 t : Vec Ideal S1x256 .f32) (ix2 (0 : Fin 1) q)
      = (m ((c : Thread nD τ).loc main_arg2) : S8192.Idx → EReal) (ix1 (col t q)) := by
  obtain ⟨-, -, -, -, -, -, e0, e1, -⟩ := idx_facts t
  have e : ((cfg0.win 3).blk t).view.emb (ix2 (0 : Fin 1) q) = ix2 (0 : Fin 1) (col t q) := funext fun a => Fin.ext (by
    match a with
    | ⟨0, _⟩ => show win0_3.index t (0 : Fin 2) * 1 + 1 * 0 = 0; omega
    | ⟨1, _⟩ => show win0_3.index t (1 : Fin 2) * 256 + 1 * q.val = 256 * t.val + q.val; omega)
  show V m c main_v4 (((cfg0.win 3).blk t).view.emb (ix2 (0 : Fin 1) q)) = _
  rw [e]
  exact V_bias_apply m c (col t q)

/-! ## What a point writes back -/

/-- The result as one function of the argument arrays as launched. -/
abbrev result (c : Dev nD) : S32x8192.Idx → EReal :=
  out (m ((c : Thread nD τ).loc main_arg0)) (m ((c : Thread nD τ).loc main_arg1)) (m ((c : Thread nD τ).loc main_arg2))
    (m ((c : Thread nD τ).loc main_arg3))

/-- Point `t` writes back block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S256x8192) hz, View.ld_unit_zero (S := S32x8192) hz, View.ld_unit_zero (S := S1x256) hz]
  obtain ⟨-, -, -, -, -, -, -, -, e0, e1⟩ := idx_facts t
  funext y
  obtain ⟨p, q, rfl⟩ : ∃ (p : Fin 32) (q : Fin 256), y = ix2 p q := ⟨y 0, y 1, eq_ix2 y⟩
  have e : ((cfg0.win 4).blk t).view.emb (ix2 p q) = ix2 p (col t q) := funext fun a => Fin.ext (by
    match a with
    | ⟨0, _⟩ => show win0_4.index t (0 : Fin 2) * 32 + 1 * p.val = p.val; omega
    | ⟨1, _⟩ => show win0_4.index t (1 : Fin 2) * 256 + 1 * q.val = 256 * t.val + q.val; omega)
  show k0_pay1 (F := Ideal) (iblk m c 1 t) (iblk m c 0 t) (iblk m c 2 t) (iblk m c 3 t) (ix2 p q)
    = result m c (((cfg0.win 4).blk t).view.emb (ix2 p q))
  rw [e]
  refine (payload_apply _ _ _ _ p q).trans ?_
  rw [scale_block, bias_block]
  show _ = rowDot _ _ p (col t q) * _ + _
  unfold rowDot
  refine congrArg (fun z => z * _ + _) (Finset.sum_congr rfl fun k _ => ?_)
  rw [act_block, weight_block]

/-! ## The blocks tile the array -/

/-- An index of the array is in point `t`'s block iff each coordinate is in the block's range on its axis. -/
theorem mem_blk (t : Fin cfg0.N) (i : S32x8192.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v6).slice (win0_4.rect t)).set ↔ _
  rw [View.set_slice_whole, Rect.mem_set_unit]
  exact Iff.rfl

/-- Column `j` lies in the block of point `j / 256`. -/
theorem cover (i : S32x8192.Idx) : ∃ t : Fin cfg0.N, (cfg0.win 4).flush t = true ∧ i ∈ ((cfg0.win 4).blk t).view.set := by
  have hi0 : (i 0).val < 32 := (i 0).isLt
  have hi1 : (i 1).val < 8192 := (i 1).isLt
  let t : Fin cfg0.N := ⟨(i 1).val / 256, by rw [show cfg0.N = 32 from N_0]; omega⟩
  obtain ⟨-, -, -, -, -, -, -, -, e0, e1⟩ := idx_facts t
  have ht : t.val = (i 1).val / 256 := rfl
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 256 ≤ (i 1).val ∧ (i 1).val < win0_4.index t (1 : Fin 2) * 256 + 256; omega

/-- After the run the result array is `result`. -/
theorem final (c : Dev nD) : (dats m 0 c).arrAt 4 cfg0.N = result m c :=
  (dats m 0 c).arrAt_eq_of_cover 4 (result m c) (fun t _ => flushed_eq m c t) cover

/-- The kernel's run, read: the result array at `out` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.RefValue.lean ====
/-
  The reference program's result, index by index.

  Reading its operations one at a time at an index `i = (b, o)`: the channel scale is broadcast along each weight
  row and multiplies the converted weights, `x` is contracted with the scaled weights over the shared axis, and the
  bias is broadcast over the batch axis and added. The scale stage at a channel is `scaleAt` of the channel's
  parameter, and the whole result is `outScaledWeights` of the four arguments.
-/
import proofs.«133541_j14259291422935_2_alg».proof.Proof.Gen.ReferenceIdeal.Read
import proofs.«133541_j14259291422935_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.TernaryLinear

/-- The scale stage at channel `j`: the softplus function's operations and the clamp, at the channel's parameter. -/
theorem scale_apply (x1 : (⟨S8192, .f32⟩ : BufTy).Contents (Elt Ideal)) (j : S8192.Idx) :
    val_main_v2 (F := Ideal) x1 j = scaleAt (x1 j) := by
  simp only [val_main_v2_apply, val_main_v0_apply, val_main_v1_apply, val_main_cst_apply, val_main_call0_v4_apply,
    val_main_call0_v6_apply, val_main_call0_v11_apply, val_main_call0_v1_apply, val_main_call0_v10_apply,
    val_main_call0_v9_apply, val_main_call0_v8_apply, val_main_call0_v7_apply, val_main_call0_v3_apply,
    val_main_call0_v0_apply, val_main_call0_v2_apply, val_main_call0_v5_apply, val_main_call0_cst_apply]
  rfl

/-- The contraction reads the activations at `(b, k)` … -/
theorem lhs_index (i : S32x8192.Idx) (k : Fin 8192) : lidx_main_v7 i k = ix2 (n0 := 32) (n1 := 8192) (i 0) k :=
  funext fun a => by match a with | ⟨0, _⟩ => rfl | ⟨1, _⟩ => rfl
/-- … and the scaled weights at `(o, k)`. -/
theorem rhs_index (i : S32x8192.Idx) (k : Fin 8192) : ridx_main_v7 i k = ix2 (n0 := 8192) (n1 := 8192) (i 1) k :=
  funext fun a => by match a with | ⟨0, _⟩ => rfl | ⟨1, _⟩ => rfl
/-- The scale broadcast along a weight row is read at the row's channel. -/
theorem scale_index (i : S32x8192.Idx) (k : Fin 8192) :
    idx_main_v4 (idx_main_v5 (ix2 (n0 := 8192) (n1 := 8192) (i 1) k)) = ix1 (n := 8192) (i 1) :=
  funext fun a => by match a with | ⟨0, _⟩ => rfl
/-- The bias broadcast over the batch axis is read at the column's channel. -/
theorem bias_index (i : S32x8192.Idx) : idx_main_v8 (idx_main_v9 i) = ix1 (n := 8192) (i 1) :=
  funext fun a => by match a with | ⟨0, _⟩ => rfl

/-- The reference's result is the scaled-weights arrangement of the specification. -/
theorem result_eq (x0 : (⟨S32x8192, .f32⟩ : BufTy).Contents (Elt Ideal)) (x1 x2 : (⟨S8192, .f32⟩ : BufTy).Contents (Elt Ideal))
    (x3 : (⟨S8192x8192, .i32⟩ : BufTy).Contents (Elt Ideal)) :
    val_main_v10 (F := Ideal) x0 x1 x2 x3 = outScaledWeights x0 x1 x2 x3 := by
  funext i
  rw [val_main_v10_apply, val_main_v7_apply, val_main_v9_apply, val_main_v8_apply, bias_index]
  simp only [val_main_v6_apply, val_main_v3_apply, val_main_v5_apply, val_main_v4_apply, scale_apply, lhs_index, rhs_index,
    scale_index]
  rfl

end Cert.ReferenceIdeal.RefValue

end
-- ==== Proof.Finite.lean ====
/-
  Under the precondition every channel parameter is a real number.

  The precondition is the conjunction of three `all`s, one per float argument, each of `|x| < +∞` element by
  element. The middle one is about the channel parameters. An extended real whose absolute value is below `+∞` is
  neither `+∞` nor `-∞`, so it is a real.
-/
import proofs.«133541_j14259291422935_2_alg».proof.Pre_finite_inputs
import proofs.«133541_j14259291422935_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Hand

open Cert.Pre_finite_inputs Idealize.ShloMosaic Idealize.ShloMosaic.ValueIdx

/-- The scalar shape has one index. -/
instance : Subsingleton S_.Idx := ⟨fun a b => funext fun d => d.elim0⟩

/-- The word the precondition compares against denotes `+∞`. -/
theorem inf_eq : Ideal.ofBits .f32 0x7F800000#32 = ⊤ := by
  simp [Ideal.ofBits, Ideal.ieee]

/-- An extended real with `|x| < +∞` is a real. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- Where the precondition holds, every element of the second argument (the channel parameters) is a real. -/
theorem params_real (a0 : FVec Ideal S32x8192 .f32) (a1 a2 : FVec Ideal S8192 .f32) (a3 : IVec S8192x8192 32)
    (h : fn (F := Ideal) a0 a1 a2 a3 = fun _ => 1#1) (j : S8192.Idx) : ∃ r : ℝ, a1 j = (r : EReal) := by
  have h0 := congrFun h ix0
  dsimp only [fn] at h0
  obtain ⟨h1, -⟩ := IntOp.andi_eq_one.1 h0
  obtain ⟨-, h7⟩ := IntOp.andi_eq_one.1 h1
  exact real_of_abs_lt_inf _ (Host.reduce_andi_all _ _ _ _ _ h7 j)

end Cert.Pre_finite_inputs.Hand

end
-- ==== Proof.lean ====
/- The proof of `Cert.Claim` (proofs.«133541_j14259291422935_2_alg».proof.Defs).

   The program is a linear layer with integer weights and a per-channel scale: for activations `x : [32, 8192]`,
   channel parameters `ℓ : [8192]`, biases `β : [8192]` and weights `W : [8192, 8192]` (32-bit integers),
       out[b, o] = Σ_k x[b, k] · W[o, k] · s(ℓ[o]) + β[o],     s(ℓ) = max (softplus ℓ) c,
   with `c` a small positive constant. The kernel contracts `x` with the integer weights, one block of 256 channels
   per grid point, and multiplies the total by the scale; the reference scales every weight first and contracts once.

   On the extended reals the two agree because the scale is a non-negative real: a factor `0 ≤ s < ⊤` moves across
   a finite sum whatever the summands (Proof/Algebra.lean), and at a real parameter `s(ℓ)` is a real at least `c ≥ 0`.
   The precondition makes every channel parameter real (Proof/Finite.lean); nothing is needed of the activations,
   the biases or the weights. Both programs compute the scale by the same operations, and the conversion of an integer
   weight and a change of float format do not depend on the format on the extended reals.

   Proof/Spec.lean states the result as one function of the four arguments, in both arrangements, and their equality.
   Proof/RefValue.lean reads the reference's operations at an index. Proof/Payload.lean reads the kernel body's stored
   value at a block element, Proof/HostArrays.lean what the region finds in the arrays the host prepares, and
   Proof/Blocks.lean puts the 32 column blocks together into the whole result array. The three frames are the generated
   ones (the reference's is its generated run with the result dropped), and the idealization rewrote nothing. -/
import proofs.«133541_j14259291422935_2_alg».proof.Defs
import proofs.«133541_j14259291422935_2_alg».proof.Proof.Gen.Kernel
import proofs.«133541_j14259291422935_2_alg».proof.Proof.Gen.Kernel.Skeleton
import proofs.«133541_j14259291422935_2_alg».proof.Proof.Gen.Kernel.Launch
import proofs.«133541_j14259291422935_2_alg».proof.Proof.Gen.Kernel.Points
import proofs.«133541_j14259291422935_2_alg».proof.Proof.Gen.Kernel.Frame
import proofs.«133541_j14259291422935_2_alg».proof.Proof.Gen.KernelIdeal
import proofs.«133541_j14259291422935_2_alg».proof.Proof.Gen.KernelIdeal.Skeleton
import proofs.«133541_j14259291422935_2_alg».proof.Proof.Gen.KernelIdeal.Launch
import proofs.«133541_j14259291422935_2_alg».proof.Proof.Gen.KernelIdeal.Points
import proofs.«133541_j14259291422935_2_alg».proof.Proof.Gen.KernelIdeal.Frame
import proofs.«133541_j14259291422935_2_alg».proof.Proof.Gen.ReferenceIdeal
import proofs.«133541_j14259291422935_2_alg».proof.Proof.Gen.Pre_finite_inputs
import proofs.«133541_j14259291422935_2_alg».proof.Proof.Gen.KernelIdeal.Value
import proofs.«133541_j14259291422935_2_alg».proof.Proof.Gen.ReferenceIdeal.Run
import proofs.«133541_j14259291422935_2_alg».proof.Proof.Gen.ReferenceIdeal.Read
import proofs.«133541_j14259291422935_2_alg».proof.Proof.Blocks
import proofs.«133541_j14259291422935_2_alg».proof.Proof.RefValue
import proofs.«133541_j14259291422935_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the kernel's result array ends at `out` of the arguments and the
    reference's at the scaled-weights arrangement of the same arguments; the channel parameters being real, these are
    one function. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2.1, (hagree c).2.2.2]
  exact (Cert.TernaryLinear.out_eq_outScaledWeights _ _ _ _
    (Cert.Pre_finite_inputs.Hand.params_real _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
